-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S64x128 : Shape := ⟨2, ![64, 128]⟩
abbrev S64 : Shape := ⟨1, ![64]⟩
abbrev S64x64 : Shape := ⟨2, ![64, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg5 : FVec F S64 .f32) (main_arg6 : FVec F S64x64 .f32) (main_arg7 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S64x128 .f32) (main_arg3 : FVec F S64 .f32) (main_arg4 : FVec F S64x64 .f32) (main_arg5 : FVec F S64 .f32) (main_arg6 : FVec F S64x64 .f32) (main_arg7 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S64x128 : Shape := ⟨2, ![64, 128]⟩
abbrev S64 : Shape := ⟨1, ![64]⟩
abbrev S64x64 : Shape := ⟨2, ![64, 64]⟩
abbrev S1x1600000 : Shape := ⟨2, ![1, 1600000]⟩
abbrev S1600000 : Shape := ⟨1, ![1600000]⟩
abbrev S128x64 : Shape := ⟨2, ![128, 64]⟩
abbrev S1x64 : Shape := ⟨2, ![1, 64]⟩
abbrev S100000x64 : Shape := ⟨2, ![100000, 64]⟩
abbrev S5000x128 : Shape := ⟨2, ![5000, 128]⟩
abbrev S5000x64 : Shape := ⟨2, ![5000, 64]⟩
abbrev S_ : Shape := ⟨0, ![]⟩
abbrev S1600000x1 : Shape := ⟨2, ![1600000, 1]⟩
abbrev S1600000x64 : Shape := ⟨2, ![1600000, 64]⟩

abbrev nBuf : Space → Nat
  | .hbm => 47
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S64x128, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S128x64, .f32⟩
  | .hbm, ⟨13, _⟩ => ⟨S1x64, .f32⟩
  | .hbm, ⟨14, _⟩ => ⟨S100000x64, .f32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x64, .f32⟩
  | .hbm, ⟨24, _⟩ => ⟨S_, .f32⟩
  | .hbm, ⟨25, _⟩ => ⟨S100000x64, .f32⟩
  | .hbm, ⟨26, _⟩ => ⟨S1600000x1, .i32⟩
  | .hbm, ⟨27, _⟩ => ⟨S100000x64, .f32⟩
  | .hbm, ⟨28, _⟩ => ⟨S64x64, .f32⟩
  | .hbm, ⟨29, _⟩ => ⟨S1x64, .f32⟩
  | .hbm, ⟨30, _⟩ => ⟨S100000x64, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x64, .f32⟩
  | .hbm, ⟨40, _⟩ => ⟨S_, .f32⟩
  | .hbm, ⟨41, _⟩ => ⟨S100000x64, .f32⟩
  | .hbm, ⟨42, _⟩ => ⟨S1600000x1, .i32⟩
  | .hbm, ⟨43, _⟩ => ⟨S100000x64, .f32⟩
  | .hbm, ⟨44, _⟩ => ⟨S64x64, .f32⟩
  | .hbm, ⟨45, _⟩ => ⟨S1x64, .f32⟩
  | .hbm, ⟨46, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S64x64, .f32⟩
  | .local _ .vmem, ⟨11, _⟩ => ⟨S1x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S64x64, .f32⟩
  | .local _ .vmem, ⟨19, _⟩ => ⟨S1x64, .f32⟩
  | .local _ .vmem, ⟨20, _⟩ => ⟨S5000x64, .f32⟩
  | .local _ .vmem, ⟨21, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_v7 : Ref sig .tc := ⟨.hbm, 16, rfl⟩
abbrev main_v8 : Ref sig .tc := ⟨.hbm, 17, rfl⟩
abbrev main_c_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_1 : Ref sig .tc := ⟨.hbm, 31, rfl⟩
abbrev main_v20 : Ref sig .tc := ⟨.hbm, 32, rfl⟩
abbrev main_v21 : Ref sig .tc := ⟨.hbm, 33, rfl⟩
abbrev main_c_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg4_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem4_0 : DmaSem sig := 20
abbrev cc2_sem4_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  transposes_S64x128_S128x64_1_0 : S64x128.Transposes [1, 0] S128x64
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  transposes_S64x64_S64x64_1_0 : S64x64.Transposes [1, 0] S64x64
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S100000x64.size a
  hwx2_4 : ∀ i : grid2.Coords, EltTy.bits .f32 = 32 ∨ (Rect.block (s := S100000x64) S5000x64.size (cc2_transform_4 i) (hinb2_4 i)).WholeWords (EltTy.packing .f32)

variable [Facts₀]

def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v6) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v18) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v19) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v19) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v30) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v31) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v32) S5000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S64x128 : Shape := ⟨2, ![64, 128]⟩
abbrev S64 : Shape := ⟨1, ![64]⟩
abbrev S64x64 : Shape := ⟨2, ![64, 64]⟩
abbrev S1x1600000 : Shape := ⟨2, ![1, 1600000]⟩
abbrev S1600000 : Shape := ⟨1, ![1600000]⟩
abbrev S128x64 : Shape := ⟨2, ![128, 64]⟩
abbrev S100000x64 : Shape := ⟨2, ![100000, 64]⟩
abbrev S1x64 : Shape := ⟨2, ![1, 64]⟩
abbrev S_ : Shape := ⟨0, ![]⟩
abbrev S1600000x1 : Shape := ⟨2, ![1600000, 1]⟩
abbrev S1600000x64 : Shape := ⟨2, ![1600000, 64]⟩

abbrev nBuf : Space → Nat
  | .hbm => 58
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S64x128, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S128x64, .f32⟩
  | .hbm, ⟨13, _⟩ => ⟨S100000x64, .f32⟩
  | .hbm, ⟨14, _⟩ => ⟨S1x64, .f32⟩
  | .hbm, ⟨15, _⟩ => ⟨S100000x64, .f32⟩
  | .hbm, ⟨16, _⟩ => ⟨S100000x64, .f32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000x64, .f32⟩
  | .hbm, ⟨26, _⟩ => ⟨S_, .f32⟩
  | .hbm, ⟨27, _⟩ => ⟨S100000x64, .f32⟩
  | .hbm, ⟨28, _⟩ => ⟨S1600000x1, .i32⟩
  | .hbm, ⟨29, _⟩ => ⟨S100000x64, .f32⟩
  | .hbm, ⟨30, _⟩ => ⟨S100000x64, .f32⟩
  | .hbm, ⟨31, _⟩ => ⟨S64x64, .f32⟩
  | .hbm, ⟨32, _⟩ => ⟨S100000x64, .f32⟩
  | .hbm, ⟨33, _⟩ => ⟨S1x64, .f32⟩
  | .hbm, ⟨34, _⟩ => ⟨S100000x64, .f32⟩
  | .hbm, ⟨35, _⟩ => ⟨S100000x64, .f32⟩
  | .hbm, ⟨36, _⟩ => ⟨S_, .f32⟩
  | .hbm, ⟨37, _⟩ => ⟨S100000x64, .f32⟩
  | .hbm, ⟨38, _⟩ => ⟨S100000x64, .f32⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000x64, .f32⟩
  | .hbm, ⟨48, _⟩ => ⟨S_, .f32⟩
  | .hbm, ⟨49, _⟩ => ⟨S100000x64, .f32⟩
  | .hbm, ⟨50, _⟩ => ⟨S1600000x1, .i32⟩
  | .hbm, ⟨51, _⟩ => ⟨S100000x64, .f32⟩
  | .hbm, ⟨52, _⟩ => ⟨S100000x64, .f32⟩
  | .hbm, ⟨53, _⟩ => ⟨S64x64, .f32⟩
  | .hbm, ⟨54, _⟩ => ⟨S100000x64, .f32⟩
  | .hbm, ⟨55, _⟩ => ⟨S1x64, .f32⟩
  | .hbm, ⟨56, _⟩ => ⟨S100000x64, .f32⟩
  | .hbm, ⟨57, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c : Ref sig .tc := ⟨.hbm, 17, rfl⟩
abbrev main_v9 : Ref sig .tc := ⟨.hbm, 18, rfl⟩
abbrev main_v10 : Ref sig .tc := ⟨.hbm, 19, rfl⟩
abbrev main_c_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_call0_cst : Ref sig .tc := ⟨.hbm, 36, rfl⟩
abbrev main_call0_v0 : Ref sig .tc := ⟨.hbm, 37, rfl⟩
abbrev main_v25 : Ref sig .tc := ⟨.hbm, 38, rfl⟩
abbrev main_c_1 : Ref sig .tc := ⟨.hbm, 39, rfl⟩
abbrev main_v26 : Ref sig .tc := ⟨.hbm, 40, rfl⟩
abbrev main_v27 : Ref sig .tc := ⟨.hbm, 41, rfl⟩
abbrev main_c_2 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_3 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  transposes_S64x64_S64x64_1_0 : S64x64.Transposes [1, 0] S64x64
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KRun.lean ====
/-
  The kernel program's run with its result named. The program is three kernel regions among three stretches of host
  operations; the buffer contents at each boundary are a fold from the launch memory (a stretch applies its
  operations, a region replaces its arrays by what its write-backs leave). Every weakly fair execution terminates
  with every unscoped buffer at the last boundary's contents: in particular the result buffer holds what the third
  region's write-backs leave, and the arguments are as launched.
-/
import proofs.«140557_j7189775253562_1_alg».proof.Proof.Gen.KernelIdeal.Frame

set_option maxRecDepth 16384

noncomputable section

namespace Cert.Gin

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, nothing faulting, with the result buffer at the last
    boundary's contents and the arguments as launched. -/
theorem run_result : θ_run defs (onTc (τ := τ) (main (F := F))) ⟨m, fun _ => 0, ρ⟩ (fun r => ∀ c : Dev nD,
      r.2.mem ((c.tc : Thread nD τ).loc main_v32) = W6 m ρ c (Proc.devRef .tc main_v32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v32 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c)⟩)

end Cert.Gin

end
-- ==== Proof.LibPlainDot.lean ====
/-
  A plain matrix product read at coordinates. For dimension numbers that contract the left operand's columns with
  the right operand's rows and have no batch axis, a product of an `[M, K]` by a `[K, N]` matrix into a zero accumulator
  is, at the extended reals and at `(p, q)`, the sum over `k` of `l (p, k) · r (k, q)`.
-/
import Idealize.ShloMosaic.PureOps.Ideal.Laws
import Idealize.ShloMosaic.Lib.ValueIdx

noncomputable section

namespace Cert.LibPlainDot

open Idealize.ShloMosaic Idealize.ShloMosaic.ValueIdx
open scoped BigOperators

variable {M K N : Nat} (d : DotDims ⟨2, ![M, K]⟩ ⟨2, ![K, N]⟩ ⟨2, ![M, N]⟩)

/-- The left operand's row coordinate is the result's row. -/
theorem lhsIdx_row (hlb : d.lhsBatch = []) (hln : d.lhsNonContracting = [0]) (j : (⟨2, ![M, N]⟩ : Shape).Idx) (k : d.contr.Idx) :
    (d.lhsIdx j k 0).val = (j 0).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The right operand's column coordinate is the result's column. -/
theorem rhsIdx_col (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

/-- The product at `(p, q)`. -/
theorem matmul_plain_apply {φ₁ φ₂ : FTy} (hlc : d.lhsContracting = [1]) (hrc : d.rhsContracting = [0])
    (hlb : d.lhsBatch = []) (hrb : d.rhsBatch = []) (hln : d.lhsNonContracting = [0]) (hrn : d.rhsNonContracting = [1])
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  have hr : d.contr.rank = 1 := by rw [d.rank_contr, hlc]; rfl
  have hs : d.contr.size ⟨0, by omega⟩ = K := by
    rw [d.size_contr 0 (by rw [hlc]; exact Nat.one_pos)]
    simp [hlc]
  rw [Ideal.matmul_constant_zero_apply, ← Equiv.sum_comp (contrEquiv1 d K hr hs).symm]
  refine Finset.sum_congr rfl fun k _ => ?_
  have e0 : (((contrEquiv1 d K hr hs).symm k) ⟨0, by omega⟩ : ℕ) = k.val := contrEquiv1_symm_val d K hr hs k
  have hl : d.lhsIdx (ix2 p q) ((contrEquiv1 d K hr hs).symm k) = ix2 p k := by
    refine funext fun a => Fin.ext ?_
    match a with
    | ⟨0, _⟩ => exact lhsIdx_row d hlb hln (ix2 p q) _
    | ⟨1, _⟩ => exact (d.lhsIdx_val_of_single (cl := 1) hlc (ix2 p q) _).trans e0
  have hrr : d.rhsIdx (ix2 p q) ((contrEquiv1 d K hr hs).symm k) = ix2 k q := by
    refine funext fun a => Fin.ext ?_
    match a with
    | ⟨0, _⟩ => exact (d.rhsIdx_val_of_single (cr := 0) hrc (ix2 p q) _).trans e0
    | ⟨1, _⟩ => exact rhsIdx_col d hlb hrb hln hrn (ix2 p q) _
  rw [hl, hrr]

end Cert.LibPlainDot

end
-- ==== Proof.Dense.lean ====
/-
  One dense layer of the network, on the rows of a matrix, and what each kernel body stores.

  For a matrix `A` of `M` rows and `K` columns, a weight already transposed to `[K, 64]` and a bias held as one row
  `[1, 64]`, the layer is `out (p, q) = Σ_k A (p, k) · Wt (k, q) + b (0, q)`. On the extended reals the rounding of the
  operands to bf16 before the product is the identity, and a matrix product into a zero accumulator is that sum, so the
  first kernel's stored block is the layer of its three loaded blocks; the two later kernels first add their two row
  blocks entry by entry, and the middle one takes the maximum with zero afterwards.
-/
import Idealize.ShloMosaic.PureOps.Ideal.Laws
import Idealize.ShloMosaic.Lib.ValueIdx
import Idealize.ShloMosaic.Lib.ValueLayout
import Idealize.ShloMosaic.Lib.Pipeline.Value
import proofs.«140557_j7189775253562_1_alg».proof.Proof.LibPlainDot
import proofs.«140557_j7189775253562_1_alg».proof.Proof.Gen.KernelIdeal.Skeleton

noncomputable section

namespace Cert.Gin

open Idealize.ShloMosaic Idealize.ShloMosaic.ValueIdx
open Cert.KernelIdeal Cert.KernelIdeal.Gen
open scoped BigOperators

/-- The dense layer: `out (p, q) = Σ_k A (p, k) · Wt (k, q) + b (0, q)`. -/
def dense {M K : Nat} (A : FVec Ideal ⟨2, ![M, K]⟩ .f32) (Wt : FVec Ideal ⟨2, ![K, 64]⟩ .f32)
    (b : FVec Ideal ⟨2, ![1, 64]⟩ .f32) : FVec Ideal ⟨2, ![M, 64]⟩ .f32 :=
  fun j => (∑ k : Fin K, A (ix2 (j 0) k) * Wt (ix2 k (j 1))) + b (ix2 (0 : Fin 1) (j 1))

/-- The layer followed by the rectifier: the maximum with zero, entry by entry. -/
def denseRelu {M K : Nat} (A : FVec Ideal ⟨2, ![M, K]⟩ .f32) (Wt : FVec Ideal ⟨2, ![K, 64]⟩ .f32)
    (b : FVec Ideal ⟨2, ![1, 64]⟩ .f32) : FVec Ideal ⟨2, ![M, 64]⟩ .f32 :=
  fun j => max (dense A Wt b j) (Ideal.ofBits .f32 0x00000000#32)

/-- Two matrices added entry by entry. -/
def plus {M K : Nat} (A B : FVec Ideal ⟨2, ![M, K]⟩ .f32) : FVec Ideal ⟨2, ![M, K]⟩ .f32 := fun j => A j + B j

theorem dense_apply {M K : Nat} (A : FVec Ideal ⟨2, ![M, K]⟩ .f32) (Wt : FVec Ideal ⟨2, ![K, 64]⟩ .f32)
    (b : FVec Ideal ⟨2, ![1, 64]⟩ .f32) (p : Fin M) (q : Fin 64) :
    dense A Wt b (ix2 p q) = (∑ k : Fin K, A (ix2 p k) * Wt (ix2 k q)) + b (ix2 (0 : Fin 1) q) := rfl

/-- The first kernel stores the layer of its loaded blocks. -/
theorem pay_pre (x0 : FVec Ideal S5000x128 .f32) (x1 : FVec Ideal S128x64 .f32) (x2 : FVec Ideal S1x64 .f32) :
    k0_pay1 (F := Ideal) x0 x1 x2 = dense x0 x1 x2 := by
  funext j
  obtain ⟨p, q, rfl⟩ : ∃ (p : Fin 5000) (q : Fin 64), j = ix2 p q := ⟨j 0, j 1, eq_ix2 j⟩
  rw [dense_apply]
  unfold k0_pay1
  refine (addf_apply _ _ _).trans ?_
  refine congrArg₂ (· + ·) ?_ ?_
  · refine (LibPlainDot.matmul_plain_apply _ rfl rfl rfl rfl rfl rfl none _ _ p q).trans ?_
    refine Finset.sum_congr rfl fun k _ => ?_
    rw [shapeCast_self]
    rfl
  · refine (broadcastTo_1b_ab_apply _ _ p q).trans ?_
    rw [shapeCast_self]

/-- The last kernel stores the layer of the sum of its two row blocks. -/
theorem pay_out (x0 x1 : FVec Ideal S5000x64 .f32) (x2 : FVec Ideal S64x64 .f32) (x3 : FVec Ideal S1x64 .f32) :
    k2_pay1 (F := Ideal) x0 x1 x2 x3 = dense (plus x0 x1) x2 x3 := by
  funext j
  obtain ⟨p, q, rfl⟩ : ∃ (p : Fin 5000) (q : Fin 64), j = ix2 p q := ⟨j 0, j 1, eq_ix2 j⟩
  rw [dense_apply]
  unfold k2_pay1
  refine (addf_apply _ _ _).trans ?_
  refine congrArg₂ (· + ·) ?_ ?_
  · refine (LibPlainDot.matmul_plain_apply _ rfl rfl rfl rfl rfl rfl none _ _ p q).trans ?_
    refine Finset.sum_congr rfl fun k _ => ?_
    rw [shapeCast_self, shapeCast_self, shapeCast_self]
    rfl
  · refine (broadcastTo_1b_ab_apply _ _ p q).trans ?_
    rw [shapeCast_self]

/-- The middle kernel stores the same layer, then the maximum with zero. -/
theorem pay_mid (x0 x1 : FVec Ideal S5000x64 .f32) (x2 : FVec Ideal S64x64 .f32) (x3 : FVec Ideal S1x64 .f32) :
    k1_pay1 (F := Ideal) x0 x1 x2 x3 = denseRelu (plus x0 x1) x2 x3 := by
  have h : k1_pay1 (F := Ideal) x0 x1 x2 x3
      = maximumf (k2_pay1 (F := Ideal) x0 x1 x2 x3) (broadcast S5000x64 (Scalar.ofBits (F := Ideal) .f32 0x00000000#32)) := rfl
  rw [h, pay_out]
  rfl

end Cert.Gin

end
-- ==== Proof.Net.lean ====
/-
  The whole network as one function of the eight argument arrays.

  Both programs gather the node features along the edges' source nodes and add them up at the edges' destination
  nodes with the same host operations; that neighbour sum is kept as ONE function `agg` of the two edge rows and the
  features and is never opened. The network is then three dense layers: the first on the input features; the second,
  rectified, on the first layer's result plus its neighbour sum; the third on the second layer's result plus its
  neighbour sum. Each layer takes its weight transposed and its bias as one row.
-/
import proofs.«140557_j7189775253562_1_alg».proof.Proof.Dense
import proofs.«140557_j7189775253562_1_alg».proof.Proof.Gen.KernelIdeal

noncomputable section

namespace Cert.Gin

open Idealize.ShloMosaic
open Cert.KernelIdeal Cert.KernelIdeal.Facts₀

/-- The edges' source nodes: row 0 of the edge list. -/
def src (E : (⟨S2x1600000, .i32⟩ : BufTy).Contents (Elt Ideal)) : (⟨S1600000, .i32⟩ : BufTy).Contents (Elt Ideal) :=
  shapeCast S1600000 (extractStridedSlice S1x1600000 ![0, 0] E slices_S2x1600000_S1x1600000_0_0) shapeCasts_S1x1600000_S1600000

/-- The edges' destination nodes: row 1 of the edge list. -/
def dst (E : (⟨S2x1600000, .i32⟩ : BufTy).Contents (Elt Ideal)) : (⟨S1600000, .i32⟩ : BufTy).Contents (Elt Ideal) :=
  shapeCast S1600000 (extractStridedSlice S1x1600000 ![1, 0] E slices_S2x1600000_S1x1600000_1_0) shapeCasts_S1x1600000_S1600000

/-- The neighbour sum: the features gathered at each edge's source node (a negative node number first wrapped by the
    number of nodes) and added up, from zero, at each edge's destination node. -/
def agg (s d : (⟨S1600000, .i32⟩ : BufTy).Contents (Elt Ideal)) (h : (⟨S100000x64, .f32⟩ : BufTy).Contents (Elt Ideal)) :
    (⟨S100000x64, .f32⟩ : BufTy).Contents (Elt Ideal) :=
  Host.scatterAdd scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 d)
    (Host.gather gather_S100000x64_S1600000x1_S1600000x64_1_0_n_n_0_1_164 h
      (broadcastInDim S1600000x1 ![0] bcast_S1600000_S1600000x1_0
        (select (cmpi .slt s (broadcastInDim S1600000 ![] bcast_S_S1600000 (constantI S_ 32 0#32)))
          (addi s (broadcastInDim S1600000 ![] bcast_S_S1600000 (constantI S_ 32 100000#32))) s)))

/-- The first layer's weight, transposed. -/
def wT128 (W : (⟨S64x128, .f32⟩ : BufTy).Contents (Elt Ideal)) : (⟨S128x64, .f32⟩ : BufTy).Contents (Elt Ideal) :=
  transpose S128x64 [1, 0] W transposes_S64x128_S128x64_1_0

/-- A later layer's weight, transposed. -/
def wT64 (W : (⟨S64x64, .f32⟩ : BufTy).Contents (Elt Ideal)) : (⟨S64x64, .f32⟩ : BufTy).Contents (Elt Ideal) :=
  transpose S64x64 [1, 0] W transposes_S64x64_S64x64_1_0

/-- A bias as one row. -/
def bRow (b : (⟨S64, .f32⟩ : BufTy).Contents (Elt Ideal)) : (⟨S1x64, .f32⟩ : BufTy).Contents (Elt Ideal) :=
  shapeCast S1x64 b shapeCasts_S64_S1x64

/-- The first layer. -/
def layer0 (X : (⟨S100000x128, .f32⟩ : BufTy).Contents (Elt Ideal)) (Wp : (⟨S64x128, .f32⟩ : BufTy).Contents (Elt Ideal))
    (bp : (⟨S64, .f32⟩ : BufTy).Contents (Elt Ideal)) : (⟨S100000x64, .f32⟩ : BufTy).Contents (Elt Ideal) :=
  dense (M := 100000) (K := 128) X (wT128 Wp) (bRow bp)

/-- The second layer, rectified, on features plus their neighbour sum. -/
def layer1 (s d : (⟨S1600000, .i32⟩ : BufTy).Contents (Elt Ideal)) (h : (⟨S100000x64, .f32⟩ : BufTy).Contents (Elt Ideal))
    (W : (⟨S64x64, .f32⟩ : BufTy).Contents (Elt Ideal)) (b : (⟨S64, .f32⟩ : BufTy).Contents (Elt Ideal)) :
    (⟨S100000x64, .f32⟩ : BufTy).Contents (Elt Ideal) :=
  denseRelu (M := 100000) (K := 64) (plus h (agg s d h)) (wT64 W) (bRow b)

/-- The third layer on features plus their neighbour sum. -/
def layer2 (s d : (⟨S1600000, .i32⟩ : BufTy).Contents (Elt Ideal)) (h : (⟨S100000x64, .f32⟩ : BufTy).Contents (Elt Ideal))
    (W : (⟨S64x64, .f32⟩ : BufTy).Contents (Elt Ideal)) (b : (⟨S64, .f32⟩ : BufTy).Contents (Elt Ideal)) :
    (⟨S100000x64, .f32⟩ : BufTy).Contents (Elt Ideal) :=
  dense (M := 100000) (K := 64) (plus h (agg s d h)) (wT64 W) (bRow b)

/-- The network. -/
def net (X : (⟨S100000x128, .f32⟩ : BufTy).Contents (Elt Ideal)) (E : (⟨S2x1600000, .i32⟩ : BufTy).Contents (Elt Ideal))
    (Wp : (⟨S64x128, .f32⟩ : BufTy).Contents (Elt Ideal)) (bp : (⟨S64, .f32⟩ : BufTy).Contents (Elt Ideal))
    (W1 : (⟨S64x64, .f32⟩ : BufTy).Contents (Elt Ideal)) (b1 : (⟨S64, .f32⟩ : BufTy).Contents (Elt Ideal))
    (W2 : (⟨S64x64, .f32⟩ : BufTy).Contents (Elt Ideal)) (b2 : (⟨S64, .f32⟩ : BufTy).Contents (Elt Ideal)) :
    (⟨S100000x64, .f32⟩ : BufTy).Contents (Elt Ideal) :=
  layer2 (src E) (dst E) (layer1 (src E) (dst E) (layer0 X Wp bp) W1 b1) W2 b2

end Cert.Gin

end
-- ==== Proof.Rows.lean ====
/-
  The layer depends on its operands row by row: entry (p, q) of the layer reads row p of the matrix, column q of the
  weight and column q of the bias. So when a block's rows are rows of a taller matrix and the weight and bias are
  shared, an entry of the block's layer is the matching entry of the whole matrix's layer.
-/
import proofs.«140557_j7189775253562_1_alg».proof.Proof.Dense

noncomputable section

namespace Cert.Gin

open Idealize.ShloMosaic Idealize.ShloMosaic.ValueIdx
open scoped BigOperators

theorem hz : (![0, 0] : Fin 2 → Nat) = fun _ => 0 := funext fun a => by fin_cases a <;> rfl

/-- Entry `j` of a block's layer is entry `i` of the whole matrix's layer when row `j 0` of the block is row `i 0` of the
    matrix and the two entries sit in the same column of the same weight and bias. -/
theorem dense_rows {M M' K : Nat} (A : FVec Ideal ⟨2, ![M, K]⟩ .f32) (Wt : FVec Ideal ⟨2, ![K, 64]⟩ .f32)
    (b : FVec Ideal ⟨2, ![1, 64]⟩ .f32) (A' : FVec Ideal ⟨2, ![M', K]⟩ .f32) (Wt' : FVec Ideal ⟨2, ![K, 64]⟩ .f32)
    (b' : FVec Ideal ⟨2, ![1, 64]⟩ .f32) (j : (⟨2, ![M', 64]⟩ : Shape).Idx) (i : (⟨2, ![M, 64]⟩ : Shape).Idx)
    (hA : ∀ k : Fin K, A' (ix2 (j 0) k) = A (ix2 (i 0) k)) (hW : ∀ k : Fin K, Wt' (ix2 k (j 1)) = Wt (ix2 k (i 1)))
    (hb : b' (ix2 (0 : Fin 1) (j 1)) = b (ix2 (0 : Fin 1) (i 1))) :
    dense A' Wt' b' j = dense A Wt b i := by
  unfold dense
  rw [hb]
  refine congrArg (· + _) (Finset.sum_congr rfl fun k _ => ?_)
  rw [hA k, hW k]

/-- The same with the rectifier. -/
theorem denseRelu_rows {M M' K : Nat} (A : FVec Ideal ⟨2, ![M, K]⟩ .f32) (Wt : FVec Ideal ⟨2, ![K, 64]⟩ .f32)
    (b : FVec Ideal ⟨2, ![1, 64]⟩ .f32) (A' : FVec Ideal ⟨2, ![M', K]⟩ .f32) (Wt' : FVec Ideal ⟨2, ![K, 64]⟩ .f32)
    (b' : FVec Ideal ⟨2, ![1, 64]⟩ .f32) (j : (⟨2, ![M', 64]⟩ : Shape).Idx) (i : (⟨2, ![M, 64]⟩ : Shape).Idx)
    (hA : ∀ k : Fin K, A' (ix2 (j 0) k) = A (ix2 (i 0) k)) (hW : ∀ k : Fin K, Wt' (ix2 k (j 1)) = Wt (ix2 k (i 1)))
    (hb : b' (ix2 (0 : Fin 1) (j 1)) = b (ix2 (0 : Fin 1) (i 1))) :
    denseRelu A' Wt' b' j = denseRelu A Wt b i := by
  unfold denseRelu
  rw [dense_rows A Wt b A' Wt' b' j i hA hW hb]

end Cert.Gin

end
-- ==== Proof.Blocks0.lean ====
/-
  The first region's result array. Grid point t loads rows 5000·t … 5000·t + 4999 of the input matrix, the whole
  transposed weight and the whole bias row, and writes rows 5000·t … 5000·t + 4999 of the result; the twenty row blocks
  tile the 100000 rows. So the array the region leaves is the dense layer of the three arrays it found, entry by entry.
-/
import proofs.«140557_j7189775253562_1_alg».proof.Proof.Rows
import proofs.«140557_j7189775253562_1_alg».proof.Proof.Gen.KernelIdeal.Frame
import Idealize.ShloMosaic.Lib.Pipeline.Value

set_option maxRecDepth 16384

noncomputable section

namespace Cert.Gin.R0

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- The printed index maps over the grid: the input matrix and the result move down one block per point, the weight
    and the bias stay. -/
theorem idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of the input block at point `t` is row `5000·t + p` of the input matrix. -/
theorem blk_x (c : Dev nD) (t : Fin cfg0.N) (y : S5000x128.Idx) (i : S100000x128.Idx)
    (h0 : (i 0).val = t.val * 5000 + (y 0).val) (h1 : (i 1).val = (y 1).val) :
    (iblk0 V c 0 t : FVec Ideal S5000x128 .f32) y = (V c main_arg0 : FVec Ideal S100000x128 .f32) i := by
  obtain ⟨e0, e1, -⟩ := idx t
  show (V c main_arg0 : FVec Ideal S100000x128 .f32) (((cfg0.win 0).blk t).view.emb y) = _
  refine congrArg _ (funext fun a => Fin.ext ?_)
  match a with
  | ⟨0, _⟩ => show win0_0.index t (0 : Fin 2) * 5000 + 1 * (y 0).val = (i 0).val; omega
  | ⟨1, _⟩ => show win0_0.index t (1 : Fin 2) * 128 + 1 * (y 1).val = (i 1).val; omega

/-- The weight block at any point is the whole transposed weight. -/
theorem blk_w (c : Dev nD) (t : Fin cfg0.N) (y : S128x64.Idx) :
    (iblk0 V c 1 t : FVec Ideal S128x64 .f32) y = (V c main_v4 : FVec Ideal S128x64 .f32) y := by
  obtain ⟨-, -, e2, e3, -⟩ := idx t
  show (V c main_v4 : FVec Ideal S128x64 .f32) (((cfg0.win 1).blk t).view.emb y) = _
  refine congrArg _ (funext fun a => Fin.ext ?_)
  match a with
  | ⟨0, _⟩ => show win0_1.index t (0 : Fin 2) * 128 + 1 * (y 0).val = (y 0).val; omega
  | ⟨1, _⟩ => show win0_1.index t (1 : Fin 2) * 64 + 1 * (y 1).val = (y 1).val; omega

/-- The bias block at any point is the whole bias row. -/
theorem blk_b (c : Dev nD) (t : Fin cfg0.N) (y : S1x64.Idx) :
    (iblk0 V c 2 t : FVec Ideal S1x64 .f32) y = (V c main_v5 : FVec Ideal S1x64 .f32) y := by
  obtain ⟨-, -, -, -, e4, e5, -⟩ := idx t
  show (V c main_v5 : FVec Ideal S1x64 .f32) (((cfg0.win 2).blk t).view.emb y) = _
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 64 + 1 * (y 1).val = (y 1).val; omega

/-- What point `t` writes back is block `t` of the layer of the arrays the region found. -/
theorem flushed (c : Dev nD) (t : Fin cfg0.N) :
    (dat0 V c).flushed 3 t = ((cfg0.win 3).blk t).view.read (Elt Ideal)
      (dense (V c main_arg0 : FVec Ideal S100000x128 .f32) (V c main_v4 : FVec Ideal S128x64 .f32) (V c main_v5 : FVec Ideal S1x64 .f32)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x64) hz, View.ld_unit_zero (S := S1x64) hz]
  rw [pay_pre]
  obtain ⟨-, -, -, -, -, -, e6, e7⟩ := idx t
  funext j
  show dense (iblk0 V c 0 t : FVec Ideal S5000x128 .f32) (iblk0 V c 1 t : FVec Ideal S128x64 .f32) (iblk0 V c 2 t : FVec Ideal S1x64 .f32) j
    = dense (V c main_arg0 : FVec Ideal S100000x128 .f32) (V c main_v4 : FVec Ideal S128x64 .f32) (V c main_v5 : FVec Ideal S1x64 .f32) (((cfg0.win 3).blk t).view.emb j)
  refine dense_rows _ _ _ _ _ _ j _ (fun k => blk_x V c t _ _ ?_ rfl) (fun k => ?_) ?_
  · show win0_3.index t (0 : Fin 2) * 5000 + 1 * (j 0).val = t.val * 5000 + (j 0).val
    omega
  · refine (blk_w V c t _).trans (congrArg _ (funext fun a => Fin.ext ?_))
    match a with
    | ⟨0, _⟩ => rfl
    | ⟨1, _⟩ => show (j 1).val = win0_3.index t (1 : Fin 2) * 64 + 1 * (j 1).val; omega
  · refine (blk_b V c t _).trans (congrArg _ (funext fun a => Fin.ext ?_))
    match a with
    | ⟨0, _⟩ => rfl
    | ⟨1, _⟩ => show (j 1).val = win0_3.index t (1 : Fin 2) * 64 + 1 * (j 1).val; omega

/-- An index of the result array is in point `t`'s block iff each coordinate is in the block's range on its axis. -/
theorem mem_blk (t : Fin cfg0.N) (i : S100000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v6).slice (win0_3.rect t)).set ↔ _
  rw [View.set_slice_whole, Rect.mem_set_unit]
  exact Iff.rfl

/-- Every row of the result is in the block of the point its row number divided by 5000 names. -/
theorem cover (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 20 := N_0
  obtain ⟨t, ht⟩ : ∃ t : Fin cfg0.N, t.val = (i 0).val / 5000 := ⟨⟨(i 0).val / 5000, by rw [hN]; omega⟩, rfl⟩
  obtain ⟨-, -, -, -, -, -, e6, e7⟩ := idx t
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 64 ≤ (i 1).val ∧ (i 1).val < win0_3.index t (1 : Fin 2) * 64 + 64; omega

/-- The array the first region leaves: the dense layer of the arrays it found. -/
theorem arr (c : Dev nD) : (dat0 V c).arrAt 3 cfg0.N
    = dense (V c main_arg0 : FVec Ideal S100000x128 .f32) (V c main_v4 : FVec Ideal S128x64 .f32) (V c main_v5 : FVec Ideal S1x64 .f32) :=
  (dat0 V c).arrAt_eq_of_cover 3 _ (fun t _ => flushed V c t) cover

end Cert.Gin.R0

end
-- ==== Proof.Blocks1.lean ====
/-
  The second region's result array. Grid point t loads rows 5000·t … 5000·t + 4999 of the node features and of their
  neighbour sums, the whole transposed weight and the whole bias row, and writes the same rows of the result; the
  twenty row blocks tile the 100000 rows. So the array the region leaves is the rectified dense layer of the sum of the
  two row operands it found, entry by entry.
-/
import proofs.«140557_j7189775253562_1_alg».proof.Proof.Rows
import proofs.«140557_j7189775253562_1_alg».proof.Proof.Gen.KernelIdeal.Frame
import Idealize.ShloMosaic.Lib.Pipeline.Value

set_option maxRecDepth 16384

noncomputable section

namespace Cert.Gin.R1

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- The printed index maps over the grid: the two row operands and the result move down one block per point, the
    weight and the bias stay. -/
theorem idx : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Row `p` of the first operand's block at point `t` is row `5000·t + p` of that operand. -/
theorem blk_h (c : Dev nD) (t : Fin cfg1.N) (y : S5000x64.Idx) (i : S100000x64.Idx)
    (h0 : (i 0).val = t.val * 5000 + (y 0).val) (h1 : (i 1).val = (y 1).val) :
    (iblk1 V c 0 t : FVec Ideal S5000x64 .f32) y = (V c main_v6 : FVec Ideal S100000x64 .f32) i := by
  obtain ⟨e0, e1, -⟩ := idx t
  show (V c main_v6 : FVec Ideal S100000x64 .f32) (((cfg1.win 0).blk t).view.emb y) = _
  refine congrArg _ (funext fun a => Fin.ext ?_)
  match a with
  | ⟨0, _⟩ => show win1_0.index t (0 : Fin 2) * 5000 + 1 * (y 0).val = (i 0).val; omega
  | ⟨1, _⟩ => show win1_0.index t (1 : Fin 2) * 64 + 1 * (y 1).val = (i 1).val; omega

/-- The same for the second operand. -/
theorem blk_a (c : Dev nD) (t : Fin cfg1.N) (y : S5000x64.Idx) (i : S100000x64.Idx)
    (h0 : (i 0).val = t.val * 5000 + (y 0).val) (h1 : (i 1).val = (y 1).val) :
    (iblk1 V c 1 t : FVec Ideal S5000x64 .f32) y = (V c main_v16 : FVec Ideal S100000x64 .f32) i := by
  obtain ⟨-, -, e2, e3, -⟩ := idx t
  show (V c main_v16 : FVec Ideal S100000x64 .f32) (((cfg1.win 1).blk t).view.emb y) = _
  refine congrArg _ (funext fun a => Fin.ext ?_)
  match a with
  | ⟨0, _⟩ => show win1_1.index t (0 : Fin 2) * 5000 + 1 * (y 0).val = (i 0).val; omega
  | ⟨1, _⟩ => show win1_1.index t (1 : Fin 2) * 64 + 1 * (y 1).val = (i 1).val; omega

/-- The weight block at any point is the whole transposed weight. -/
theorem blk_w (c : Dev nD) (t : Fin cfg1.N) (y : S64x64.Idx) :
    (iblk1 V c 2 t : FVec Ideal S64x64 .f32) y = (V c main_v17 : FVec Ideal S64x64 .f32) y := by
  obtain ⟨-, -, -, -, e4, e5, -⟩ := idx t
  show (V c main_v17 : FVec Ideal S64x64 .f32) (((cfg1.win 2).blk t).view.emb y) = _
  refine congrArg _ (funext fun a => Fin.ext ?_)
  match a with
  | ⟨0, _⟩ => show win1_2.index t (0 : Fin 2) * 64 + 1 * (y 0).val = (y 0).val; omega
  | ⟨1, _⟩ => show win1_2.index t (1 : Fin 2) * 64 + 1 * (y 1).val = (y 1).val; omega

/-- The bias block at any point is the whole bias row. -/
theorem blk_b (c : Dev nD) (t : Fin cfg1.N) (y : S1x64.Idx) :
    (iblk1 V c 3 t : FVec Ideal S1x64 .f32) y = (V c main_v18 : FVec Ideal S1x64 .f32) y := by
  obtain ⟨-, -, -, -, -, -, e6, e7, -⟩ := idx t
  show (V c main_v18 : FVec Ideal S1x64 .f32) (((cfg1.win 3).blk t).view.emb y) = _
  refine congrArg _ (funext fun a => Fin.ext ?_)
  match a with
  | ⟨0, _⟩ => show win1_3.index t (0 : Fin 2) * 1 + 1 * (y 0).val = (y 0).val; omega
  | ⟨1, _⟩ => show win1_3.index t (1 : Fin 2) * 64 + 1 * (y 1).val = (y 1).val; omega

/-- What point `t` writes back is block `t` of the layer of the arrays the region found. -/
theorem flushed (c : Dev nD) (t : Fin cfg1.N) :
    (dat1 V c).flushed 4 t = ((cfg1.win 4).blk t).view.read (Elt Ideal)
      (denseRelu (plus (V c main_v6 : FVec Ideal S100000x64 .f32) (V c main_v16 : FVec Ideal S100000x64 .f32)) (V c main_v17 : FVec Ideal S64x64 .f32) (V c main_v18 : FVec Ideal S1x64 .f32)) := by
  show (cfg1.win 4).cut (grid1.coords t) ((dat1 V c).after 4 t) = _
  rw [after1_4]
  unfold out1_4
  rw [View.canon_unit_zero hz]
  simp only [View.ld_unit_zero (S := S5000x64) hz, View.ld_unit_zero (S := S64x64) hz, View.ld_unit_zero (S := S1x64) hz]
  rw [pay_mid]
  obtain ⟨-, -, -, -, -, -, -, -, e8, e9⟩ := idx t
  funext j
  show denseRelu (plus (iblk1 V c 0 t : FVec Ideal S5000x64 .f32) (iblk1 V c 1 t : FVec Ideal S5000x64 .f32)) (iblk1 V c 2 t : FVec Ideal S64x64 .f32) (iblk1 V c 3 t : FVec Ideal S1x64 .f32) j
    = denseRelu (plus (V c main_v6 : FVec Ideal S100000x64 .f32) (V c main_v16 : FVec Ideal S100000x64 .f32)) (V c main_v17 : FVec Ideal S64x64 .f32) (V c main_v18 : FVec Ideal S1x64 .f32) (((cfg1.win 4).blk t).view.emb j)
  refine denseRelu_rows _ _ _ _ _ _ j _ (fun k => ?_) (fun k => ?_) ?_
  · unfold plus
    refine congrArg₂ (· + ·) (blk_h V c t _ _ ?_ rfl) (blk_a V c t _ _ ?_ rfl)
    all_goals (show win1_4.index t (0 : Fin 2) * 5000 + 1 * (j 0).val = t.val * 5000 + (j 0).val; omega)
  · refine (blk_w V c t _).trans (congrArg _ (funext fun a => Fin.ext ?_))
    match a with
    | ⟨0, _⟩ => rfl
    | ⟨1, _⟩ => show (j 1).val = win1_4.index t (1 : Fin 2) * 64 + 1 * (j 1).val; omega
  · refine (blk_b V c t _).trans (congrArg _ (funext fun a => Fin.ext ?_))
    match a with
    | ⟨0, _⟩ => rfl
    | ⟨1, _⟩ => show (j 1).val = win1_4.index t (1 : Fin 2) * 64 + 1 * (j 1).val; omega

/-- An index of the result array is in point `t`'s block iff each coordinate is in the block's range on its axis. -/
theorem mem_blk (t : Fin cfg1.N) (i : S100000x64.Idx) :
    i ∈ ((cfg1.win 4).blk t).view.set ↔ ∀ a : Fin 2, win1_4.index t a * S5000x64.size a ≤ (i a).val ∧ (i a).val < win1_4.index t a * S5000x64.size a + S5000x64.size a := by
  show i ∈ ((View.whole main_v19).slice (win1_4.rect t)).set ↔ _
  rw [View.set_slice_whole, Rect.mem_set_unit]
  exact Iff.rfl

/-- Every row of the result is in the block of the point its row number divided by 5000 names. -/
theorem cover (i : S100000x64.Idx) : ∃ t : Fin cfg1.N, (cfg1.win 4).flush t = true ∧ i ∈ ((cfg1.win 4).blk t).view.set := by
  have hi0 : (i 0).val < 100000 := (i 0).isLt
  have hi1 : (i 1).val < 64 := (i 1).isLt
  have hN : cfg1.N = 20 := N_1
  obtain ⟨t, ht⟩ : ∃ t : Fin cfg1.N, t.val = (i 0).val / 5000 := ⟨⟨(i 0).val / 5000, by rw [hN]; omega⟩, rfl⟩
  obtain ⟨-, -, -, -, -, -, -, -, e8, e9⟩ := idx t
  refine ⟨t, flush1_4 t, ?_⟩
  rw [mem_blk]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 64 ≤ (i 1).val ∧ (i 1).val < win1_4.index t (1 : Fin 2) * 64 + 64; omega

/-- The array the second region leaves: the rectified dense layer of the sum of the two row operands it found. -/
theorem arr (c : Dev nD) : (dat1 V c).arrAt 4 cfg1.N
    = denseRelu (plus (V c main_v6 : FVec Ideal S100000x64 .f32) (V c main_v16 : FVec Ideal S100000x64 .f32)) (V c main_v17 : FVec Ideal S64x64 .f32) (V c main_v18 : FVec Ideal S1x64 .f32) :=
  (dat1 V c).arrAt_eq_of_cover 4 _ (fun t _ => flushed V c t) cover

end Cert.Gin.R1

end
-- ==== Proof.Blocks2.lean ====
/-
  The third region's result array. Grid point t loads rows 5000·t … 5000·t + 4999 of the hidden features and of their
  neighbour sums, the whole transposed weight and the whole bias row, and writes the same rows of the result; the
  twenty row blocks tile the 100000 rows. So the array the region leaves is the dense layer of the sum of the two row
  operands it found, entry by entry.
-/
import proofs.«140557_j7189775253562_1_alg».proof.Proof.Rows
import proofs.«140557_j7189775253562_1_alg».proof.Proof.Gen.KernelIdeal.Frame
import Idealize.ShloMosaic.Lib.Pipeline.Value

set_option maxRecDepth 16384

noncomputable section

namespace Cert.Gin.R2

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- The printed index maps over the grid: the two row operands and the result move down one block per point, the
    weight and the bias stay. -/
theorem idx : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Row `p` of the first operand's block at point `t` is row `5000·t + p` of that operand. -/
theorem blk_h (c : Dev nD) (t : Fin cfg2.N) (y : S5000x64.Idx) (i : S100000x64.Idx)
    (h0 : (i 0).val = t.val * 5000 + (y 0).val) (h1 : (i 1).val = (y 1).val) :
    (iblk2 V c 0 t : FVec Ideal S5000x64 .f32) y = (V c main_v19 : FVec Ideal S100000x64 .f32) i := by
  obtain ⟨e0, e1, -⟩ := idx t
  show (V c main_v19 : FVec Ideal S100000x64 .f32) (((cfg2.win 0).blk t).view.emb y) = _
  refine congrArg _ (funext fun a => Fin.ext ?_)
  match a with
  | ⟨0, _⟩ => show win2_0.index t (0 : Fin 2) * 5000 + 1 * (y 0).val = (i 0).val; omega
  | ⟨1, _⟩ => show win2_0.index t (1 : Fin 2) * 64 + 1 * (y 1).val = (i 1).val; omega

/-- The same for the second operand. -/
theorem blk_a (c : Dev nD) (t : Fin cfg2.N) (y : S5000x64.Idx) (i : S100000x64.Idx)
    (h0 : (i 0).val = t.val * 5000 + (y 0).val) (h1 : (i 1).val = (y 1).val) :
    (iblk2 V c 1 t : FVec Ideal S5000x64 .f32) y = (V c main_v29 : FVec Ideal S100000x64 .f32) i := by
  obtain ⟨-, -, e2, e3, -⟩ := idx t
  show (V c main_v29 : FVec Ideal S100000x64 .f32) (((cfg2.win 1).blk t).view.emb y) = _
  refine congrArg _ (funext fun a => Fin.ext ?_)
  match a with
  | ⟨0, _⟩ => show win2_1.index t (0 : Fin 2) * 5000 + 1 * (y 0).val = (i 0).val; omega
  | ⟨1, _⟩ => show win2_1.index t (1 : Fin 2) * 64 + 1 * (y 1).val = (i 1).val; omega

/-- The weight block at any point is the whole transposed weight. -/
theorem blk_w (c : Dev nD) (t : Fin cfg2.N) (y : S64x64.Idx) :
    (iblk2 V c 2 t : FVec Ideal S64x64 .f32) y = (V c main_v30 : FVec Ideal S64x64 .f32) y := by
  obtain ⟨-, -, -, -, e4, e5, -⟩ := idx t
  show (V c main_v30 : FVec Ideal S64x64 .f32) (((cfg2.win 2).blk t).view.emb y) = _
  refine congrArg _ (funext fun a => Fin.ext ?_)
  match a with
  | ⟨0, _⟩ => show win2_2.index t (0 : Fin 2) * 64 + 1 * (y 0).val = (y 0).val; omega
  | ⟨1, _⟩ => show win2_2.index t (1 : Fin 2) * 64 + 1 * (y 1).val = (y 1).val; omega

/-- The bias block at any point is the whole bias row. -/
theorem blk_b (c : Dev nD) (t : Fin cfg2.N) (y : S1x64.Idx) :
    (iblk2 V c 3 t : FVec Ideal S1x64 .f32) y = (V c main_v31 : FVec Ideal S1x64 .f32) y := by
  obtain ⟨-, -, -, -, -, -, e6, e7, -⟩ := idx t
  show (V c main_v31 : FVec Ideal S1x64 .f32) (((cfg2.win 3).blk t).view.emb y) = _
  refine congrArg _ (funext fun a => Fin.ext ?_)
  match a with
  | ⟨0, _⟩ => show win2_3.index t (0 : Fin 2) * 1 + 1 * (y 0).val = (y 0).val; omega
  | ⟨1, _⟩ => show win2_3.index t (1 : Fin 2) * 64 + 1 * (y 1).val = (y 1).val; omega

/-- What point `t` writes back is block `t` of the layer of the arrays the region found. -/
theorem flushed (c : Dev nD) (t : Fin cfg2.N) :
    (dat2 V c).flushed 4 t = ((cfg2.win 4).blk t).view.read (Elt Ideal)
      (dense (plus (V c main_v19 : FVec Ideal S100000x64 .f32) (V c main_v29 : FVec Ideal S100000x64 .f32)) (V c main_v30 : FVec Ideal S64x64 .f32) (V c main_v31 : FVec Ideal S1x64 .f32)) := by
  show (cfg2.win 4).cut (grid2.coords t) ((dat2 V c).after 4 t) = _
  rw [after2_4]
  unfold out2_4
  rw [View.canon_unit_zero hz]
  simp only [View.ld_unit_zero (S := S5000x64) hz, View.ld_unit_zero (S := S64x64) hz, View.ld_unit_zero (S := S1x64) hz]
  rw [pay_out]
  obtain ⟨-, -, -, -, -, -, -, -, e8, e9⟩ := idx t
  funext j
  show dense (plus (iblk2 V c 0 t : FVec Ideal S5000x64 .f32) (iblk2 V c 1 t : FVec Ideal S5000x64 .f32)) (iblk2 V c 2 t : FVec Ideal S64x64 .f32) (iblk2 V c 3 t : FVec Ideal S1x64 .f32) j
    = dense (plus (V c main_v19 : FVec Ideal S100000x64 .f32) (V c main_v29 : FVec Ideal S100000x64 .f32)) (V c main_v30 : FVec Ideal S64x64 .f32) (V c main_v31 : FVec Ideal S1x64 .f32) (((cfg2.win 4).blk t).view.emb j)
  refine dense_rows _ _ _ _ _ _ j _ (fun k => ?_) (fun k => ?_) ?_
  · unfold plus
    refine congrArg₂ (· + ·) (blk_h V c t _ _ ?_ rfl) (blk_a V c t _ _ ?_ rfl)
    all_goals (show win2_4.index t (0 : Fin 2) * 5000 + 1 * (j 0).val = t.val * 5000 + (j 0).val; omega)
  · refine (blk_w V c t _).trans (congrArg _ (funext fun a => Fin.ext ?_))
    match a with
    | ⟨0, _⟩ => rfl
    | ⟨1, _⟩ => show (j 1).val = win2_4.index t (1 : Fin 2) * 64 + 1 * (j 1).val; omega
  · refine (blk_b V c t _).trans (congrArg _ (funext fun a => Fin.ext ?_))
    match a with
    | ⟨0, _⟩ => rfl
    | ⟨1, _⟩ => show (j 1).val = win2_4.index t (1 : Fin 2) * 64 + 1 * (j 1).val; omega

/-- An index of the result array is in point `t`'s block iff each coordinate is in the block's range on its axis. -/
theorem mem_blk (t : Fin cfg2.N) (i : S100000x64.Idx) :
    i ∈ ((cfg2.win 4).blk t).view.set ↔ ∀ a : Fin 2, win2_4.index t a * S5000x64.size a ≤ (i a).val ∧ (i a).val < win2_4.index t a * S5000x64.size a + S5000x64.size a := by
  show i ∈ ((View.whole main_v32).slice (win2_4.rect t)).set ↔ _
  rw [View.set_slice_whole, Rect.mem_set_unit]
  exact Iff.rfl

/-- Every row of the result is in the block of the point its row number divided by 5000 names. -/
theorem cover (i : S100000x64.Idx) : ∃ t : Fin cfg2.N, (cfg2.win 4).flush t = true ∧ i ∈ ((cfg2.win 4).blk t).view.set := by
  have hi0 : (i 0).val < 100000 := (i 0).isLt
  have hi1 : (i 1).val < 64 := (i 1).isLt
  have hN : cfg2.N = 20 := N_2
  obtain ⟨t, ht⟩ : ∃ t : Fin cfg2.N, t.val = (i 0).val / 5000 := ⟨⟨(i 0).val / 5000, by rw [hN]; omega⟩, rfl⟩
  obtain ⟨-, -, -, -, -, -, -, -, e8, e9⟩ := idx t
  refine ⟨t, flush2_4 t, ?_⟩
  rw [mem_blk]
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 64 ≤ (i 1).val ∧ (i 1).val < win2_4.index t (1 : Fin 2) * 64 + 64; omega

/-- The array the third region leaves: the dense layer of the sum of the two row operands it found. -/
theorem arr (c : Dev nD) : (dat2 V c).arrAt 4 cfg2.N
    = dense (plus (V c main_v19 : FVec Ideal S100000x64 .f32) (V c main_v29 : FVec Ideal S100000x64 .f32)) (V c main_v30 : FVec Ideal S64x64 .f32) (V c main_v31 : FVec Ideal S1x64 .f32) :=
  (dat2 V c).arrAt_eq_of_cover 4 _ (fun t _ => flushed V c t) cover

end Cert.Gin.R2

end
-- ==== Proof.Fold.lean ====
/-
  The kernel program's buffers at each boundary, read back to the arguments.

  The first stretch of host operations cuts the edge list into its two rows, transposes the first weight and reshapes
  the first bias to a row; the first region leaves the first layer. The second stretch forms that layer's neighbour
  sum, transposes the second weight and reshapes the second bias; the second region leaves the rectified layer on
  features plus neighbour sum. The third stretch and region do the same once more without the rectifier. No stretch
  and no region writes a buffer it does not name, so the edge rows and the arguments reach each later boundary as
  they were. Hence the result buffer ends holding the network of the arguments.
-/
import proofs.«140557_j7189775253562_1_alg».proof.Proof.Net
import proofs.«140557_j7189775253562_1_alg».proof.Proof.Blocks0
import proofs.«140557_j7189775253562_1_alg».proof.Proof.Blocks1
import proofs.«140557_j7189775253562_1_alg».proof.Proof.Blocks2
import Idealize.ShloMosaic.Lib.StableHlo.Run

set_option maxRecDepth 16384

noncomputable section

namespace Cert.Gin

open Idealize.ShloMosaic Idealize.ShloMosaic.TcCoe Idealize.SL.Sem Idealize.ShloMosaic.StableHlo
open Cert.KernelIdeal Cert.KernelIdeal.Gen Cert.KernelIdeal.Facts₀

variable (m : (ℓ : Loc nD τ sig) → Buf (Elt Ideal) ℓ) (ρ : Dev nD → PrngReg) (c : Dev nD)

/-! ## After the first stretch -/

theorem w1_x : W1 m ρ c (Proc.devRef .tc main_arg0) = m ((c : Thread nD τ).loc main_arg0) := by
  show StableHlo.after hostOps0 (W0 m ρ c) (Proc.devRef .tc main_arg0) = _
  after_results
theorem w1_W1 : W1 m ρ c (Proc.devRef .tc main_arg4) = m ((c : Thread nD τ).loc main_arg4) := by
  show StableHlo.after hostOps0 (W0 m ρ c) (Proc.devRef .tc main_arg4) = _
  after_results
theorem w1_b1 : W1 m ρ c (Proc.devRef .tc main_arg5) = m ((c : Thread nD τ).loc main_arg5) := by
  show StableHlo.after hostOps0 (W0 m ρ c) (Proc.devRef .tc main_arg5) = _
  after_results
theorem w1_W2 : W1 m ρ c (Proc.devRef .tc main_arg6) = m ((c : Thread nD τ).loc main_arg6) := by
  show StableHlo.after hostOps0 (W0 m ρ c) (Proc.devRef .tc main_arg6) = _
  after_results
theorem w1_b2 : W1 m ρ c (Proc.devRef .tc main_arg7) = m ((c : Thread nD τ).loc main_arg7) := by
  show StableHlo.after hostOps0 (W0 m ρ c) (Proc.devRef .tc main_arg7) = _
  after_results
theorem w1_src : W1 m ρ c (Proc.devRef .tc main_v1) = src (m ((c : Thread nD τ).loc main_arg1)) := by
  show StableHlo.after hostOps0 (W0 m ρ c) (Proc.devRef .tc main_v1) = _
  after_results; rfl
theorem w1_dst : W1 m ρ c (Proc.devRef .tc main_v3) = dst (m ((c : Thread nD τ).loc main_arg1)) := by
  show StableHlo.after hostOps0 (W0 m ρ c) (Proc.devRef .tc main_v3) = _
  after_results; rfl
theorem w1_wt : W1 m ρ c (Proc.devRef .tc main_v4) = wT128 (m ((c : Thread nD τ).loc main_arg2)) := by
  show StableHlo.after hostOps0 (W0 m ρ c) (Proc.devRef .tc main_v4) = _
  after_results; rfl
theorem w1_b : W1 m ρ c (Proc.devRef .tc main_v5) = bRow (m ((c : Thread nD τ).loc main_arg3)) := by
  show StableHlo.after hostOps0 (W0 m ρ c) (Proc.devRef .tc main_v5) = _
  after_results; rfl

/-! ## After the first region -/

/-- The first region leaves the first layer. -/
theorem w2_h0 : W2 m ρ c (Proc.devRef .tc main_v6)
    = layer0 (m ((c : Thread nD τ).loc main_arg0)) (m ((c : Thread nD τ).loc main_arg2)) (m ((c : Thread nD τ).loc main_arg3)) := by
  refine (W2_arr m ρ c 3).trans ((R0.arr (V1 m ρ) c).trans ?_)
  show dense (W1 m ρ c (Proc.devRef .tc main_arg0)) (W1 m ρ c (Proc.devRef .tc main_v4)) (W1 m ρ c (Proc.devRef .tc main_v5)) = _
  rw [w1_x, w1_wt, w1_b]
  rfl
theorem w2_src : W2 m ρ c (Proc.devRef .tc main_v1) = src (m ((c : Thread nD τ).loc main_arg1)) :=
  (W2_of_ne m ρ c main_v1 (by decide)).trans (w1_src m ρ c)
theorem w2_dst : W2 m ρ c (Proc.devRef .tc main_v3) = dst (m ((c : Thread nD τ).loc main_arg1)) :=
  (W2_of_ne m ρ c main_v3 (by decide)).trans (w1_dst m ρ c)
theorem w2_W1 : W2 m ρ c (Proc.devRef .tc main_arg4) = m ((c : Thread nD τ).loc main_arg4) :=
  (W2_of_ne m ρ c main_arg4 (by decide)).trans (w1_W1 m ρ c)
theorem w2_b1 : W2 m ρ c (Proc.devRef .tc main_arg5) = m ((c : Thread nD τ).loc main_arg5) :=
  (W2_of_ne m ρ c main_arg5 (by decide)).trans (w1_b1 m ρ c)
theorem w2_W2 : W2 m ρ c (Proc.devRef .tc main_arg6) = m ((c : Thread nD τ).loc main_arg6) :=
  (W2_of_ne m ρ c main_arg6 (by decide)).trans (w1_W2 m ρ c)
theorem w2_b2 : W2 m ρ c (Proc.devRef .tc main_arg7) = m ((c : Thread nD τ).loc main_arg7) :=
  (W2_of_ne m ρ c main_arg7 (by decide)).trans (w1_b2 m ρ c)

/-! ## After the second stretch -/

theorem w3_h0 : W3 m ρ c (Proc.devRef .tc main_v6) = W2 m ρ c (Proc.devRef .tc main_v6) := by
  show StableHlo.after hostOps1 (W2 m ρ c) (Proc.devRef .tc main_v6) = _
  after_results
theorem w3_agg : W3 m ρ c (Proc.devRef .tc main_v16)
    = agg (W2 m ρ c (Proc.devRef .tc main_v1)) (W2 m ρ c (Proc.devRef .tc main_v3)) (W2 m ρ c (Proc.devRef .tc main_v6)) := by
  show StableHlo.after hostOps1 (W2 m ρ c) (Proc.devRef .tc main_v16) = _
  after_results; rfl
theorem w3_wt : W3 m ρ c (Proc.devRef .tc main_v17) = wT64 (W2 m ρ c (Proc.devRef .tc main_arg4)) := by
  show StableHlo.after hostOps1 (W2 m ρ c) (Proc.devRef .tc main_v17) = _
  after_results; rfl
theorem w3_b : W3 m ρ c (Proc.devRef .tc main_v18) = bRow (W2 m ρ c (Proc.devRef .tc main_arg5)) := by
  show StableHlo.after hostOps1 (W2 m ρ c) (Proc.devRef .tc main_v18) = _
  after_results; rfl
theorem w3_src : W3 m ρ c (Proc.devRef .tc main_v1) = W2 m ρ c (Proc.devRef .tc main_v1) := by
  show StableHlo.after hostOps1 (W2 m ρ c) (Proc.devRef .tc main_v1) = _
  after_results
theorem w3_dst : W3 m ρ c (Proc.devRef .tc main_v3) = W2 m ρ c (Proc.devRef .tc main_v3) := by
  show StableHlo.after hostOps1 (W2 m ρ c) (Proc.devRef .tc main_v3) = _
  after_results
theorem w3_W2 : W3 m ρ c (Proc.devRef .tc main_arg6) = W2 m ρ c (Proc.devRef .tc main_arg6) := by
  show StableHlo.after hostOps1 (W2 m ρ c) (Proc.devRef .tc main_arg6) = _
  after_results
theorem w3_b2 : W3 m ρ c (Proc.devRef .tc main_arg7) = W2 m ρ c (Proc.devRef .tc main_arg7) := by
  show StableHlo.after hostOps1 (W2 m ρ c) (Proc.devRef .tc main_arg7) = _
  after_results

/-! ## After the second region -/

/-- The hidden features: the rectified layer on the first layer plus its neighbour sum. -/
abbrev hidden : (⟨S100000x64, .f32⟩ : BufTy).Contents (Elt Ideal) :=
  layer1 (src (m ((c : Thread nD τ).loc main_arg1))) (dst (m ((c : Thread nD τ).loc main_arg1)))
    (layer0 (m ((c : Thread nD τ).loc main_arg0)) (m ((c : Thread nD τ).loc main_arg2)) (m ((c : Thread nD τ).loc main_arg3)))
    (m ((c : Thread nD τ).loc main_arg4)) (m ((c : Thread nD τ).loc main_arg5))

/-- The second region leaves the hidden features. -/
theorem w4_h1 : W4 m ρ c (Proc.devRef .tc main_v19) = hidden m c := by
  refine (W4_arr m ρ c 4).trans ((R1.arr (V3 m ρ) c).trans ?_)
  show denseRelu (plus (W3 m ρ c (Proc.devRef .tc main_v6)) (W3 m ρ c (Proc.devRef .tc main_v16)))
    (W3 m ρ c (Proc.devRef .tc main_v17)) (W3 m ρ c (Proc.devRef .tc main_v18)) = _
  rw [w3_agg, w3_h0, w3_wt, w3_b, w2_h0, w2_src, w2_dst, w2_W1, w2_b1]
  rfl
theorem w4_src : W4 m ρ c (Proc.devRef .tc main_v1) = src (m ((c : Thread nD τ).loc main_arg1)) :=
  (W4_of_ne m ρ c main_v1 (by decide)).trans ((w3_src m ρ c).trans (w2_src m ρ c))
theorem w4_dst : W4 m ρ c (Proc.devRef .tc main_v3) = dst (m ((c : Thread nD τ).loc main_arg1)) :=
  (W4_of_ne m ρ c main_v3 (by decide)).trans ((w3_dst m ρ c).trans (w2_dst m ρ c))
theorem w4_W2 : W4 m ρ c (Proc.devRef .tc main_arg6) = m ((c : Thread nD τ).loc main_arg6) :=
  (W4_of_ne m ρ c main_arg6 (by decide)).trans ((w3_W2 m ρ c).trans (w2_W2 m ρ c))
theorem w4_b2 : W4 m ρ c (Proc.devRef .tc main_arg7) = m ((c : Thread nD τ).loc main_arg7) :=
  (W4_of_ne m ρ c main_arg7 (by decide)).trans ((w3_b2 m ρ c).trans (w2_b2 m ρ c))

/-! ## After the third stretch -/

theorem w5_h1 : W5 m ρ c (Proc.devRef .tc main_v19) = W4 m ρ c (Proc.devRef .tc main_v19) := by
  show StableHlo.after hostOps2 (W4 m ρ c) (Proc.devRef .tc main_v19) = _
  after_results
theorem w5_agg : W5 m ρ c (Proc.devRef .tc main_v29)
    = agg (W4 m ρ c (Proc.devRef .tc main_v1)) (W4 m ρ c (Proc.devRef .tc main_v3)) (W4 m ρ c (Proc.devRef .tc main_v19)) := by
  show StableHlo.after hostOps2 (W4 m ρ c) (Proc.devRef .tc main_v29) = _
  after_results; rfl
theorem w5_wt : W5 m ρ c (Proc.devRef .tc main_v30) = wT64 (W4 m ρ c (Proc.devRef .tc main_arg6)) := by
  show StableHlo.after hostOps2 (W4 m ρ c) (Proc.devRef .tc main_v30) = _
  after_results; rfl
theorem w5_b : W5 m ρ c (Proc.devRef .tc main_v31) = bRow (W4 m ρ c (Proc.devRef .tc main_arg7)) := by
  show StableHlo.after hostOps2 (W4 m ρ c) (Proc.devRef .tc main_v31) = _
  after_results; rfl

/-! ## After the third region -/

/-- The result buffer ends holding the network of the arguments. -/
theorem w6_net : W6 m ρ c (Proc.devRef .tc main_v32)
    = net (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  refine (W6_arr m ρ c 4).trans ((R2.arr (V5 m ρ) c).trans ?_)
  show dense (plus (W5 m ρ c (Proc.devRef .tc main_v19)) (W5 m ρ c (Proc.devRef .tc main_v29)))
    (W5 m ρ c (Proc.devRef .tc main_v30)) (W5 m ρ c (Proc.devRef .tc main_v31)) = _
  rw [w5_agg, w5_h1, w5_wt, w5_b, w4_h1, w4_src, w4_dst, w4_W2, w4_b2]
  rfl

end Cert.Gin

end
-- ==== Proof.RefNet.lean ====
/-
  The reference computes the network. Read one operation at a time, its first sum-of-products plus the broadcast
  bias is the first dense layer; its neighbour sums are the shared host chain applied to that layer's result; its
  second sum-of-products, bias and maximum with zero are the rectified layer on features plus neighbour sum; its last
  sum-of-products and bias the third layer. A transposed weight is read at (k, q) as the weight at (q, k) on both
  sides, and a bias broadcast to one row and a bias reshaped to one row both hold b (q) at (0, q).
-/
import proofs.«140557_j7189775253562_1_alg».proof.Proof.Net
import proofs.«140557_j7189775253562_1_alg».proof.Proof.Gen.ReferenceIdeal.Read

noncomputable section

namespace Cert.Gin.Ref

open Idealize.ShloMosaic Idealize.ShloMosaic.ValueIdx
open Cert.ReferenceIdeal Cert.ReferenceIdeal.Read Cert.ReferenceIdeal.Facts₀
open scoped BigOperators

variable (x0 : (⟨S100000x128, .f32⟩ : BufTy).Contents (Elt Ideal)) (x1 : (⟨S2x1600000, .i32⟩ : BufTy).Contents (Elt Ideal))
  (x2 : (⟨S64x128, .f32⟩ : BufTy).Contents (Elt Ideal)) (x3 : (⟨S64, .f32⟩ : BufTy).Contents (Elt Ideal))
  (x4 : (⟨S64x64, .f32⟩ : BufTy).Contents (Elt Ideal)) (x5 : (⟨S64, .f32⟩ : BufTy).Contents (Elt Ideal))
  (x6 : (⟨S64x64, .f32⟩ : BufTy).Contents (Elt Ideal)) (x7 : (⟨S64, .f32⟩ : BufTy).Contents (Elt Ideal))

/-- A bias broadcast to one row holds, at (0, q), what the bias reshaped to one row holds there: b (q). -/
theorem bias_row (b : (⟨S64, .f32⟩ : BufTy).Contents (Elt Ideal)) (q : Fin 64) :
    broadcastInDim S1x64 ![1] bcast_S64_S1x64_1 b (ix2 (0 : Fin 1) q) = bRow b (ix2 (0 : Fin 1) q) := by
  unfold bRow
  refine Eq.trans ?_ (shapeCast_a_1a_apply b _ 0 q).symm
  refine broadcastInDim_apply _ bcast_S64_S1x64_1 b _ _ fun a => ?_
  match a with
  | ⟨0, _⟩ => show q.val = if (64 : Nat) = 1 then 0 else q.val; rw [if_neg (by decide)]

/-- The edge rows and the neighbour sums of the reference are the shared ones. -/
theorem sum1 : val_main_v19 (F := Ideal) x0 x1 x2 x3
    = plus (val_main_v8 (F := Ideal) x0 x2 x3) (agg (src x1) (dst x1) (val_main_v8 (F := Ideal) x0 x2 x3)) := rfl

theorem sum2 : val_main_v36 (F := Ideal) x0 x1 x2 x3 x4 x5
    = plus (val_main_v25 (F := Ideal) x0 x1 x2 x3 x4 x5) (agg (src x1) (dst x1) (val_main_v25 (F := Ideal) x0 x1 x2 x3 x4 x5)) := rfl

/-- The reference's first sum-of-products plus bias is the first layer. -/
theorem layer0_eq : val_main_v8 (F := Ideal) x0 x2 x3 = layer0 x0 x2 x3 := by
  funext i
  obtain ⟨p, q, rfl⟩ : ∃ (p : Fin 100000) (q : Fin 64), i = ix2 p q := ⟨i 0, i 1, eq_ix2 i⟩
  rw [val_main_v8_apply, val_main_v5_apply, val_main_v7_apply]
  unfold layer0
  rw [dense_apply]
  refine congrArg₂ (· + ·) (Finset.sum_congr rfl fun k _ => ?_) ?_
  · have el : lidx_main_v5 (ix2 p q) k = ix2 p k := funext fun a => Fin.ext (by match a with | ⟨0, _⟩ => rfl | ⟨1, _⟩ => rfl)
    have er : ridx_main_v5 (ix2 p q) k = ix2 k q := funext fun a => Fin.ext (by match a with | ⟨0, _⟩ => rfl | ⟨1, _⟩ => rfl)
    rw [el, er]
    rfl
  · have e7 : idx_main_v7 (ix2 p q) = ix2 (0 : Fin 1) q := funext fun a => Fin.ext (by match a with | ⟨0, _⟩ => rfl | ⟨1, _⟩ => rfl)
    rw [e7]
    exact bias_row x3 q

/-- The reference's second sum-of-products, bias and maximum with zero are the rectified layer. -/
theorem layer1_eq : val_main_v25 (F := Ideal) x0 x1 x2 x3 x4 x5
    = layer1 (src x1) (dst x1) (val_main_v8 (F := Ideal) x0 x2 x3) x4 x5 := by
  funext i
  obtain ⟨p, q, rfl⟩ : ∃ (p : Fin 100000) (q : Fin 64), i = ix2 p q := ⟨i 0, i 1, eq_ix2 i⟩
  rw [val_main_v25_apply, val_main_v24_apply, val_main_v21_apply, val_main_v23_apply, val_main_call0_v0_apply,
    val_main_call0_cst_apply, sum1]
  unfold layer1 denseRelu
  rw [dense_apply]
  refine congrArg₂ max (congrArg₂ (· + ·) (Finset.sum_congr rfl fun k _ => ?_) ?_) rfl
  · have el : lidx_main_v21 (ix2 p q) k = ix2 p k := funext fun a => Fin.ext (by match a with | ⟨0, _⟩ => rfl | ⟨1, _⟩ => rfl)
    have er : ridx_main_v21 (ix2 p q) k = ix2 k q := funext fun a => Fin.ext (by match a with | ⟨0, _⟩ => rfl | ⟨1, _⟩ => rfl)
    rw [el, er]
    rfl
  · have e7 : idx_main_v23 (ix2 p q) = ix2 (0 : Fin 1) q := funext fun a => Fin.ext (by match a with | ⟨0, _⟩ => rfl | ⟨1, _⟩ => rfl)
    rw [e7]
    exact bias_row x5 q

/-- The reference's last sum-of-products plus bias is the third layer. -/
theorem layer2_eq : val_main_v41 (F := Ideal) x0 x1 x2 x3 x4 x5 x6 x7
    = layer2 (src x1) (dst x1) (val_main_v25 (F := Ideal) x0 x1 x2 x3 x4 x5) x6 x7 := by
  funext i
  obtain ⟨p, q, rfl⟩ : ∃ (p : Fin 100000) (q : Fin 64), i = ix2 p q := ⟨i 0, i 1, eq_ix2 i⟩
  rw [val_main_v41_apply, val_main_v38_apply, val_main_v40_apply, sum2]
  unfold layer2
  rw [dense_apply]
  refine congrArg₂ (· + ·) (Finset.sum_congr rfl fun k _ => ?_) ?_
  · have el : lidx_main_v38 (ix2 p q) k = ix2 p k := funext fun a => Fin.ext (by match a with | ⟨0, _⟩ => rfl | ⟨1, _⟩ => rfl)
    have er : ridx_main_v38 (ix2 p q) k = ix2 k q := funext fun a => Fin.ext (by match a with | ⟨0, _⟩ => rfl | ⟨1, _⟩ => rfl)
    rw [el, er]
    rfl
  · have e7 : idx_main_v40 (ix2 p q) = ix2 (0 : Fin 1) q := funext fun a => Fin.ext (by match a with | ⟨0, _⟩ => rfl | ⟨1, _⟩ => rfl)
    rw [e7]
    exact bias_row x7 q

/-- The reference's result is the network of its arguments. -/
theorem net_eq : val_main_v41 (F := Ideal) x0 x1 x2 x3 x4 x5 x6 x7 = net x0 x1 x2 x3 x4 x5 x6 x7 := by
  rw [layer2_eq, layer1_eq, layer0_eq]
  rfl

end Cert.Gin.Ref

end
-- ==== Proof.lean ====
/-
  A three-layer graph network — a dense layer on the input features, then twice "add to each node the sum of its
  neighbours' features and apply a dense layer", the first of the two rectified — computed by three tiled kernels
  with the gathers and scatter-adds between them on the host, against the same network written with whole-array
  products.

  On the extended reals the two programs are one function of the eight arguments. Each kernel handles 5000 rows per
  grid point and its twenty row blocks tile the 100000 rows; a dense layer depends on its matrix operand row by row,
  so the blocks a kernel writes back are the blocks of the layer of the whole arrays (`Blocks0`–`Blocks2`, over
  `Dense` and `Rows`). Rounding an operand to bf16 is the identity and a matrix product into a zero accumulator is
  the sum of products, which is what the reference's contraction is; a weight transposed on the host is read at
  (k, q) as the weight at (q, k) by both; a bias reshaped to one row and a bias broadcast to one row hold the same
  entries. The neighbour sum is the same chain of host operations in both programs and is carried as one function,
  never opened (`Net`). `Fold` reads the kernel program's buffers boundary by boundary back to the arguments,
  `RefNet` reads the reference's operations as the same three layers, and `KRun` is the kernel program's run with its
  result named. No step needs the inputs to be finite: no sum is rearranged and nothing is cancelled.
-/
import proofs.«140557_j7189775253562_1_alg».proof.Defs
import proofs.«140557_j7189775253562_1_alg».proof.Proof.Gen.Kernel
import proofs.«140557_j7189775253562_1_alg».proof.Proof.Gen.Kernel.Skeleton
import proofs.«140557_j7189775253562_1_alg».proof.Proof.Gen.Kernel.Launch
import proofs.«140557_j7189775253562_1_alg».proof.Proof.Gen.Kernel.Points
import proofs.«140557_j7189775253562_1_alg».proof.Proof.Gen.Kernel.Frame
import proofs.«140557_j7189775253562_1_alg».proof.Proof.Gen.KernelIdeal
import proofs.«140557_j7189775253562_1_alg».proof.Proof.Gen.KernelIdeal.Skeleton
import proofs.«140557_j7189775253562_1_alg».proof.Proof.Gen.KernelIdeal.Launch
import proofs.«140557_j7189775253562_1_alg».proof.Proof.Gen.KernelIdeal.Points
import proofs.«140557_j7189775253562_1_alg».proof.Proof.Gen.KernelIdeal.Frame
import proofs.«140557_j7189775253562_1_alg».proof.Proof.Gen.ReferenceIdeal
import proofs.«140557_j7189775253562_1_alg».proof.Proof.Gen.Pre_finite_inputs
import proofs.«140557_j7189775253562_1_alg».proof.Proof.Gen.ReferenceIdeal.Run
import proofs.«140557_j7189775253562_1_alg».proof.Proof.Gen.ReferenceIdeal.Read
import proofs.«140557_j7189775253562_1_alg».proof.Proof.KRun
import proofs.«140557_j7189775253562_1_alg».proof.Proof.Fold
import proofs.«140557_j7189775253562_1_alg».proof.Proof.RefNet
import Idealize.ShloMosaic.Adequacy
import Idealize.ShloMosaic.Init

noncomputable section

namespace Cert.Proof

open Idealize.ShloMosaic Idealize.SL.Sem

/-- The three programs run, and leave their arguments as launched. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the network of the arguments in their result buffer. -/
theorem algebraic : Cert.algebraic_KernelIdeal_ReferenceIdeal := by
  intro m ρ m' ρ' _ hagree
  refine ⟨fun c => Cert.Gin.net
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.Gin.w6_net m ρ c), (h c).2⟩) (Cert.Gin.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7⟩ := hagree c
    rw [Cert.ReferenceIdeal.Read.val_main_v41_eq, Cert.Gin.Ref.net_eq, e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
